-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x128 : Shape := ⟨2, ![256, 128]⟩
abbrev S128 : Shape := ⟨1, ![128]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S65536x256 .f32) (main_arg1 : FVec F S256x128 .f32) (main_arg2 : FVec F S128 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S65536x256 : Shape := ⟨2, ![65536, 256]⟩
abbrev S256x128 : Shape := ⟨2, ![256, 128]⟩
abbrev S128 : Shape := ⟨1, ![128]⟩
abbrev S1x128 : Shape := ⟨2, ![1, 128]⟩
abbrev S65536x1 : Shape := ⟨2, ![65536, 1]⟩
abbrev S4096x256 : Shape := ⟨2, ![4096, 256]⟩
abbrev S4096x1 : Shape := ⟨2, ![4096, 1]⟩
abbrev S4096x128 : Shape := ⟨2, ![4096, 128]⟩
abbrev S4096x64x2 : Shape := ⟨3, ![4096, 64, 2]⟩
abbrev S4096x64 : Shape := ⟨2, ![4096, 64]⟩
abbrev S4096x32x2 : Shape := ⟨3, ![4096, 32, 2]⟩
abbrev S4096x32 : Shape := ⟨2, ![4096, 32]⟩
abbrev S4096x16x2 : Shape := ⟨3, ![4096, 16, 2]⟩
abbrev S4096x16 : Shape := ⟨2, ![4096, 16]⟩
abbrev S4096x8x2 : Shape := ⟨3, ![4096, 8, 2]⟩
abbrev S4096x8 : Shape := ⟨2, ![4096, 8]⟩
abbrev S4096x4x2 : Shape := ⟨3, ![4096, 4, 2]⟩
abbrev S4096x4 : Shape := ⟨2, ![4096, 4]⟩
abbrev S4096x2x2 : Shape := ⟨3, ![4096, 2, 2]⟩
abbrev S4096x2 : Shape := ⟨2, ![4096, 2]⟩
abbrev S4096x1x2 : Shape := ⟨3, ![4096, 1, 2]⟩

abbrev nBuf : Space → Nat
  | .hbm => 5
  | .vmem => 6
  | .smem => 0
  | _ => 0

abbrev bufTy : (tb : Table) → Fin (tcTables nBuf tb) → BufTy
  | .hbm, ⟨0, _⟩ => ⟨S65536x256, .f32⟩
  | .hbm, ⟨1, _⟩ => ⟨S256x128, .f32⟩
  | .hbm, ⟨2, _⟩ => ⟨S128, .f32⟩
  | .hbm, ⟨3, _⟩ => ⟨S1x128, .f32⟩
  | .hbm, ⟨4, _⟩ => ⟨S65536x1, .f32⟩
  | .local _ .vmem, ⟨0, _⟩ => ⟨S4096x256, .f32⟩
  | .local _ .vmem, ⟨1, _⟩ => ⟨S4096x256, .f32⟩
  | .local _ .vmem, ⟨2, _⟩ => ⟨S256x128, .f32⟩
  | .local _ .vmem, ⟨3, _⟩ => ⟨S1x128, .f32⟩
  | .local _ .vmem, ⟨4, _⟩ => ⟨S4096x1, .f32⟩
  | .local _ .vmem, ⟨5, _⟩ => ⟨S4096x1, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128_S1x128 : S128.ShapeCasts S1x128
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S4096x128_S4096x64x2 : S4096x128.ShapeCasts S4096x64x2
  reduces_S4096x64x2_S4096x64 : S4096x64x2.Reduces [2] S4096x64
  shapeCasts_S4096x64_S4096x32x2 : S4096x64.ShapeCasts S4096x32x2
  reduces_S4096x32x2_S4096x32 : S4096x32x2.Reduces [2] S4096x32
  shapeCasts_S4096x32_S4096x16x2 : S4096x32.ShapeCasts S4096x16x2
  reduces_S4096x16x2_S4096x16 : S4096x16x2.Reduces [2] S4096x16
  shapeCasts_S4096x16_S4096x8x2 : S4096x16.ShapeCasts S4096x8x2
  reduces_S4096x8x2_S4096x8 : S4096x8x2.Reduces [2] S4096x8
  shapeCasts_S4096x8_S4096x4x2 : S4096x8.ShapeCasts S4096x4x2
  reduces_S4096x4x2_S4096x4 : S4096x4x2.Reduces [2] S4096x4
  shapeCasts_S4096x4_S4096x2x2 : S4096x4.ShapeCasts S4096x2x2
  reduces_S4096x2x2_S4096x2 : S4096x2x2.Reduces [2] S4096x2
  shapeCasts_S4096x2_S4096x1x2 : S4096x2.ShapeCasts S4096x1x2
  reduces_S4096x1x2_S4096x1 : S4096x1x2.Reduces [2] S4096x1
  inb_S4096x1_S4096x1_0_0 : ∀ a, (![0, 0] : Fin 2 → Nat) a + S4096x1.size a ≤ S4096x1.size a
  h_S4096x1 : 0 < S4096x1.numel
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S65536x1.size a
  hwx0_3 : ∀ i : grid0.Coords, EltTy.bits .f32 = 32 ∨ (Rect.block (s := S65536x1) S4096x1.size (cc0_transform_3 i) (hinb0_3 i)).WholeWords (EltTy.packing .f32)

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x128 : Shape := ⟨2, ![256, 128]⟩
abbrev S128 : Shape := ⟨1, ![128]⟩
abbrev S65536x128 : Shape := ⟨2, ![65536, 128]⟩
abbrev S1x128 : Shape := ⟨2, ![1, 128]⟩
abbrev S65536x64x2 : Shape := ⟨3, ![65536, 64, 2]⟩
abbrev S_ : Shape := ⟨0, ![]⟩
abbrev S65536x64 : Shape := ⟨2, ![65536, 64]⟩
abbrev S65536x32x2 : Shape := ⟨3, ![65536, 32, 2]⟩
abbrev S65536x32 : Shape := ⟨2, ![65536, 32]⟩
abbrev S65536x16x2 : Shape := ⟨3, ![65536, 16, 2]⟩
abbrev S65536x16 : Shape := ⟨2, ![65536, 16]⟩
abbrev S65536x8x2 : Shape := ⟨3, ![65536, 8, 2]⟩
abbrev S65536x8 : Shape := ⟨2, ![65536, 8]⟩
abbrev S65536x4x2 : Shape := ⟨3, ![65536, 4, 2]⟩
abbrev S65536x4 : Shape := ⟨2, ![65536, 4]⟩
abbrev S65536x2x2 : Shape := ⟨3, ![65536, 2, 2]⟩
abbrev S65536x2 : Shape := ⟨2, ![65536, 2]⟩
abbrev S65536x1x2 : Shape := ⟨3, ![65536, 1, 2]⟩
abbrev S65536x1 : Shape := ⟨2, ![65536, 1]⟩

abbrev nBuf : Space → Nat
  | .hbm => 28
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S256x128, .f32⟩
  | .hbm, ⟨2, _⟩ => ⟨S128, .f32⟩
  | .hbm, ⟨3, _⟩ => ⟨S65536x128, .f32⟩
  | .hbm, ⟨4, _⟩ => ⟨S1x128, .f32⟩
  | .hbm, ⟨5, _⟩ => ⟨S65536x128, .f32⟩
  | .hbm, ⟨6, _⟩ => ⟨S65536x128, .f32⟩
  | .hbm, ⟨7, _⟩ => ⟨S65536x64x2, .f32⟩
  | .hbm, ⟨8, _⟩ => ⟨S_, .f32⟩
  | .hbm, ⟨9, _⟩ => ⟨S65536x64, .f32⟩
  | .hbm, ⟨10, _⟩ => ⟨S65536x32x2, .f32⟩
  | .hbm, ⟨11, _⟩ => ⟨S_, .f32⟩
  | .hbm, ⟨12, _⟩ => ⟨S65536x32, .f32⟩
  | .hbm, ⟨13, _⟩ => ⟨S65536x16x2, .f32⟩
  | .hbm, ⟨14, _⟩ => ⟨S_, .f32⟩
  | .hbm, ⟨15, _⟩ => ⟨S65536x16, .f32⟩
  | .hbm, ⟨16, _⟩ => ⟨S65536x8x2, .f32⟩
  | .hbm, ⟨17, _⟩ => ⟨S_, .f32⟩
  | .hbm, ⟨18, _⟩ => ⟨S65536x8, .f32⟩
  | .hbm, ⟨19, _⟩ => ⟨S65536x4x2, .f32⟩
  | .hbm, ⟨20, _⟩ => ⟨S_, .f32⟩
  | .hbm, ⟨21, _⟩ => ⟨S65536x4, .f32⟩
  | .hbm, ⟨22, _⟩ => ⟨S65536x2x2, .f32⟩
  | .hbm, ⟨23, _⟩ => ⟨S_, .f32⟩
  | .hbm, ⟨24, _⟩ => ⟨S65536x2, .f32⟩
  | .hbm, ⟨25, _⟩ => ⟨S65536x1x2, .f32⟩
  | .hbm, ⟨26, _⟩ => ⟨S_, .f32⟩
  | .hbm, ⟨27, _⟩ => ⟨S65536x1, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  shapeCasts_S65536x128_S65536x64x2 : S65536x128.ShapeCasts S65536x64x2
  reducesTo_S65536x64x2_S65536x64_d2 : S65536x64x2.ReducesTo [2] S65536x64
  h_S_ : 0 < S_.numel
  shapeCasts_S65536x64_S65536x32x2 : S65536x64.ShapeCasts S65536x32x2
  reducesTo_S65536x32x2_S65536x32_d2 : S65536x32x2.ReducesTo [2] S65536x32
  shapeCasts_S65536x32_S65536x16x2 : S65536x32.ShapeCasts S65536x16x2
  reducesTo_S65536x16x2_S65536x16_d2 : S65536x16x2.ReducesTo [2] S65536x16
  shapeCasts_S65536x16_S65536x8x2 : S65536x16.ShapeCasts S65536x8x2
  reducesTo_S65536x8x2_S65536x8_d2 : S65536x8x2.ReducesTo [2] S65536x8
  shapeCasts_S65536x8_S65536x4x2 : S65536x8.ShapeCasts S65536x4x2
  reducesTo_S65536x4x2_S65536x4_d2 : S65536x4x2.ReducesTo [2] S65536x4
  shapeCasts_S65536x4_S65536x2x2 : S65536x4.ShapeCasts S65536x2x2
  reducesTo_S65536x2x2_S65536x2_d2 : S65536x2x2.ReducesTo [2] S65536x2
  shapeCasts_S65536x2_S65536x1x2 : S65536x2.ShapeCasts S65536x1x2
  reducesTo_S65536x1x2_S65536x1_d2 : S65536x1x2.ReducesTo [2] S65536x1
  dot_S65536x256_S256x128_S65536x128_1_0_0_1_n_n_wf : DotDims.WF S65536x256 S256x128 S65536x128 [1] [0] [0] [1] [] []

variable [Facts₀]

def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf

class Facts : Prop extends Facts₀ where

variable [Facts]
-- ==== Proof.LibPairLevel.lean ====
/-
  One level of a tree over adjacent pairs.

  A row of m = 2n values is folded to n values: entry q of the result combines, from an initial value, the two
  adjacent entries 2q and 2q + 1 of the row.  Because the combining operation commutes and associates, the order in
  which the two entries are met does not matter, so a vector unit's reduction over the last axis of the row re-laid
  as [n, 2] and the host's reduce over that axis of the same re-laid row are both this level: hostReduce_relaid for the
  host's reduce with any commutative associative body, vectorMin_relaid and vectorMax_relaid for a vector unit's min- and
  max-reduction on the extended reals, each as an equation of whole arrays, at any row count A and any n;
  pairLevel_row says a level's row depends on that row only.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Idealize.ShloMosaic.LibPairLevel

open Idealize.ShloMosaic Idealize.ShloMosaic.ValueIdx

variable {α : Type}

/-- Entry (r, q) of one level: the fold of op from init over the adjacent entries (r, 2q) and (r, 2q + 1). -/
def pairAt (op : α → α → α) [Std.Commutative op] [Std.Associative op] (init : α) {A m n : Nat} (hm : m = n * 2)
    (X : (⟨2, ![A, m]⟩ : Shape).Idx → α) (r : Fin A) (q : Fin n) : α :=
  (Finset.univ : Finset (Fin 2)).fold op init
    fun k => X (ix2 r ⟨q.val * 2 + k.val, by have := q.isLt; have := k.isLt; omega⟩)

/-- One level as an array: [A, m] to [A, n] with m = 2n. -/
def pairLevel (op : α → α → α) [Std.Commutative op] [Std.Associative op] (init : α) {A m n : Nat} (hm : m = n * 2)
    (X : (⟨2, ![A, m]⟩ : Shape).Idx → α) : (⟨2, ![A, n]⟩ : Shape).Idx → α :=
  fun j => pairAt op init (n := n) hm X (j 0 : Fin A) (j 1 : Fin n)

theorem pairLevel_apply (op : α → α → α) [Std.Commutative op] [Std.Associative op] (init : α) {A m n : Nat}
    (hm : m = n * 2) (X : (⟨2, ![A, m]⟩ : Shape).Idx → α) (r : Fin A) (q : Fin n) :
    pairLevel op init hm X (ix2 r q) = pairAt op init hm X r q := rfl

/-- A level only looks along a row: if row r of one array is row r' of another, so are their levels' rows. -/
theorem pairLevel_row (op : α → α → α) [Std.Commutative op] [Std.Associative op] (init : α) {A A' m n : Nat}
    (hm : m = n * 2) (K : (⟨2, ![A, m]⟩ : Shape).Idx → α) (R : (⟨2, ![A', m]⟩ : Shape).Idx → α) (r : Fin A) (r' : Fin A')
    (h : ∀ q : Fin m, K (ix2 r q) = R (ix2 r' q)) (q : Fin n) :
    pairLevel op init hm K (ix2 r q) = pairLevel op init hm R (ix2 r' q) := by
  rw [pairLevel_apply, pairLevel_apply]
  unfold pairAt
  exact congrArg (fun f => Finset.fold op init f Finset.univ) (funext fun k => h _)

/-- The row [A, m] re-laid as [A, n, 2], read at (r, q, k): the row's entry 2q + k. -/
theorem relaid_apply {A m n : Nat} (hm : m = n * 2) (X : (⟨2, ![A, m]⟩ : Shape).Idx → α)
    (hsc : (⟨2, ![A, m]⟩ : Shape).ShapeCasts ⟨3, ![A, n, 2]⟩) (r : Fin A) (q : Fin n) (k : Fin 2) :
    shapeCast ⟨3, ![A, n, 2]⟩ X hsc (ix3 r q k)
      = X (ix2 r ⟨q.val * 2 + k.val, by have := q.isLt; have := k.isLt; omega⟩) := by
  refine shapeCast_apply X hsc _ _ ?_
  rw [Shape.rowMajor_val_two, Shape.rowMajor_val_three]
  show r.val * m + (q.val * 2 + k.val) = (r.val * n + q.val) * 2 + k.val
  subst hm
  ring

/-- Over result index (r, q) of a reduction of [A, n, 2] over its last axis, the source index with k inserted is (r, q, k). -/
theorem lift_last {A n : Nat} (h : (⟨3, ![A, n, 2]⟩ : Shape).Reduces [2] ⟨2, ![A, n]⟩) (r : Fin A) (q : Fin n) (k : Fin 2) :
    h.lift (ix2 r q) k = ix3 r q k := by
  funext c
  apply Fin.ext
  match c with
  | ⟨0, _⟩ => rfl
  | ⟨1, _⟩ => rfl
  | ⟨2, _⟩ => rfl

/-- The fold over the last axis's two coordinates of the re-laid row is the level's entry. -/
theorem fold_relaid (op : α → α → α) [Std.Commutative op] [Std.Associative op] (init : α) {A m n : Nat} (hm : m = n * 2)
    (X : (⟨2, ![A, m]⟩ : Shape).Idx → α) (hsc : (⟨2, ![A, m]⟩ : Shape).ShapeCasts ⟨3, ![A, n, 2]⟩)
    (h : (⟨3, ![A, n, 2]⟩ : Shape).Reduces [2] ⟨2, ![A, n]⟩) (r : Fin A) (q : Fin n) :
    (Finset.univ : Finset (Fin 2)).fold op init (shapeCast ⟨3, ![A, n, 2]⟩ X hsc ∘ h.lift (ix2 r q))
      = pairAt op init hm X r q := by
  unfold pairAt
  refine congrArg (fun f => Finset.fold op init f Finset.univ) (funext fun k => ?_)
  show shapeCast ⟨3, ![A, n, 2]⟩ X hsc (h.lift (ix2 r q) k) = _
  rw [lift_last h r q k]
  exact relaid_apply hm X hsc r q k

/-- THE HOST'S LEVEL: a reduce, with a commutative associative body and a constant initial value, over the last axis of
    the row re-laid as [A, n, 2]. -/
theorem hostReduce_relaid (f : α → α → α) [Std.Commutative f] [Std.Associative f] {A m n : Nat} (hm : m = n * 2)
    (X : (⟨2, ![A, m]⟩ : Shape).Idx → α) (hsc : (⟨2, ![A, m]⟩ : Shape).ShapeCasts ⟨3, ![A, n, 2]⟩)
    {u : Shape} (init : u.Idx → α) (h' : (⟨3, ![A, n, 2]⟩ : Shape).ReducesTo [2] ⟨2, ![A, n]⟩) (hu : 0 < u.numel) :
    Host.reduce f (shapeCast ⟨3, ![A, n, 2]⟩ X hsc) init h' hu = pairLevel f (init (Shape.Idx.first hu)) hm X := by
  have h : (⟨3, ![A, n, 2]⟩ : Shape).Reduces [2] ⟨2, ![A, n]⟩ := ⟨h'.1, Nat.succ_pos 1, h'.2⟩
  funext j
  obtain ⟨r, q, rfl⟩ : ∃ (r : Fin A) (q : Fin n), j = ix2 r q := ⟨j 0, j 1, eq_ix2 j⟩
  rw [pairLevel_apply]
  refine (Host.reduce_eq_fold_single f _ init h' h hu _).trans ?_
  exact fold_relaid f _ hm X hsc h r q

/-- A vector unit's min-reduction, from its neutral accumulator, over the last axis of a row re-laid as [A, n, 2]. -/
theorem vectorMin_relaid {φ : FTy} {A m n : Nat} (hm : m = n * 2) (X : FVec Ideal ⟨2, ![A, m]⟩ φ)
    (hsc : (⟨2, ![A, m]⟩ : Shape).ShapeCasts ⟨3, ![A, n, 2]⟩) (acc : BitVec φ.bits)
    (h : (⟨3, ![A, n, 2]⟩ : Shape).Reduces [2] ⟨2, ![A, n]⟩) (hφ : FKind.Formats φ)
    (hacc : acc = FKind.minimumf.neutral φ hφ) :
    multiReduction .minimumf [2] ⟨2, ![A, n]⟩ (shapeCast ⟨3, ![A, n, 2]⟩ X hsc) acc h hφ hacc
      = pairLevel (FloatOps.minimumf (F := Ideal) (φ := φ)) (FloatOps.ofBits φ acc) hm X := by
  funext j
  obtain ⟨r, q, rfl⟩ : ∃ (r : Fin A) (q : Fin n), j = ix2 r q := ⟨j 0, j 1, eq_ix2 j⟩
  rw [pairLevel_apply]
  refine (multiReduction_minimumf_eq_fold _ acc h hφ hacc _).trans ?_
  refine (h.fold_filter_drop_single _ _ _ _).trans ?_
  exact fold_relaid _ _ hm X hsc h r q

/-- The same for a max-reduction. -/
theorem vectorMax_relaid {φ : FTy} {A m n : Nat} (hm : m = n * 2) (X : FVec Ideal ⟨2, ![A, m]⟩ φ)
    (hsc : (⟨2, ![A, m]⟩ : Shape).ShapeCasts ⟨3, ![A, n, 2]⟩) (acc : BitVec φ.bits)
    (h : (⟨3, ![A, n, 2]⟩ : Shape).Reduces [2] ⟨2, ![A, n]⟩) (hφ : FKind.Formats φ)
    (hacc : acc = FKind.maximumf.neutral φ hφ) :
    multiReduction .maximumf [2] ⟨2, ![A, n]⟩ (shapeCast ⟨3, ![A, n, 2]⟩ X hsc) acc h hφ hacc
      = pairLevel (FloatOps.maximumf (F := Ideal) (φ := φ)) (FloatOps.ofBits φ acc) hm X := by
  funext j
  obtain ⟨r, q, rfl⟩ : ∃ (r : Fin A) (q : Fin n), j = ix2 r q := ⟨j 0, j 1, eq_ix2 j⟩
  rw [pairLevel_apply]
  refine (multiReduction_maximumf_eq_fold _ acc h hφ hacc _).trans ?_
  refine (h.fold_filter_drop_single _ _ _ _).trans ?_
  exact fold_relaid _ _ hm X hsc h r q

end Idealize.ShloMosaic.LibPairLevel

end
-- ==== Proof.MinMaxTree.lean ====
/-
  The seven-level min/max tree over a row of 128 leaf values.

  Bottom-up the levels alternate: adjacent pairs are combined by min (from +infinity), the 64 results pairwise by
  max (from -infinity), then min, max, min, max, and a last min leaves one value per row.  A vector unit's
  reduction of the re-laid row with a neutral accumulator is one such level, like the host's reduce (LibPairLevel).
-/
import proofs.«176620_j85126251807339_1_alg».proof.Proof.LibPairLevel

noncomputable section

namespace Cert.MinMaxTree

open Idealize.ShloMosaic Idealize.ShloMosaic.ValueIdx Idealize.ShloMosaic.LibPairLevel

/-- min and max of two f32 values read as extended reals, and the two initial values: the patterns of +infinity and
    -infinity, kept as patterns (both programs carry the same two). -/
abbrev mn : Ideal .f32 → Ideal .f32 → Ideal .f32 := FloatOps.minimumf (F := Ideal) (φ := .f32)
abbrev mx : Ideal .f32 → Ideal .f32 → Ideal .f32 := FloatOps.maximumf (F := Ideal) (φ := .f32)
abbrev top : Ideal .f32 := FloatOps.ofBits (F := Ideal) .f32 0x7F800000#32
abbrev bot : Ideal .f32 := FloatOps.ofBits (F := Ideal) .f32 0xFF800000#32

/-- THE TREE: 128 leaf values per row to one, by min, max, min, max, min, max, min over adjacent pairs. -/
def tree {A : Nat} (X : (⟨2, ![A, 128]⟩ : Shape).Idx → Ideal .f32) : (⟨2, ![A, 1]⟩ : Shape).Idx → Ideal .f32 :=
  pairLevel mn top (m := 2) (n := 1) rfl
    (pairLevel mx bot (m := 4) (n := 2) rfl
      (pairLevel mn top (m := 8) (n := 4) rfl
        (pairLevel mx bot (m := 16) (n := 8) rfl
          (pairLevel mn top (m := 32) (n := 16) rfl
            (pairLevel mx bot (m := 64) (n := 32) rfl
              (pairLevel mn top (m := 128) (n := 64) rfl X))))))

/-- The tree's value on a row depends on that row's 128 leaves only. -/
theorem tree_row {A A' : Nat} (K : (⟨2, ![A, 128]⟩ : Shape).Idx → Ideal .f32) (R : (⟨2, ![A', 128]⟩ : Shape).Idx → Ideal .f32)
    (r : Fin A) (r' : Fin A') (h : ∀ q : Fin 128, K (ix2 r q) = R (ix2 r' q)) (q : Fin 1) :
    tree K (ix2 r q) = tree R (ix2 r' q) := by
  unfold tree
  exact pairLevel_row mn top rfl _ _ r r'
    (pairLevel_row mx bot rfl _ _ r r'
      (pairLevel_row mn top rfl _ _ r r'
        (pairLevel_row mx bot rfl _ _ r r'
          (pairLevel_row mn top rfl _ _ r r'
            (pairLevel_row mx bot rfl _ _ r r'
              (pairLevel_row mn top rfl _ _ r r' h)))))) q

end Cert.MinMaxTree

end
-- ==== Proof.ReferenceTree.lean ====
/-
  The reference's result is the tree of its leaves.

  After the leaves (x times W plus the bias, 128 per row) the reference alternates a re-laying of each row as
  [n, 2] with a reduce over the last axis, by min from +infinity or by max from -infinity: seven levels of the tree.
-/
import proofs.«176620_j85126251807339_1_alg».proof.Proof.Gen.ReferenceIdeal.Read
import proofs.«176620_j85126251807339_1_alg».proof.Proof.MinMaxTree

noncomputable section

namespace Cert.ReferenceTree

open Idealize.ShloMosaic Idealize.ShloMosaic.ValueIdx Cert.ReferenceIdeal Cert.ReferenceIdeal.Gen Cert.ReferenceIdeal.Read
open Idealize.ShloMosaic.LibPairLevel Cert.MinMaxTree

/-- The reference's last stage is the tree of its fourth stage, the 128 leaves of each row. -/
theorem reference_tree (x0 : (⟨S65536x256, .f32⟩ : BufTy).Contents (Elt Ideal)) (x1 : (⟨S256x128, .f32⟩ : BufTy).Contents (Elt Ideal))
    (x2 : (⟨S128, .f32⟩ : BufTy).Contents (Elt Ideal)) :
    val_main_v17 (F := Ideal) x0 x1 x2 = tree (val_main_v3 (F := Ideal) x0 x1 x2) := by
  unfold val_main_v17 val_main_v16 val_main_v15 val_main_v14 val_main_v13 val_main_v12 val_main_v11 val_main_v10 val_main_v9
    val_main_v8 val_main_v7 val_main_v6 val_main_v5 val_main_v4 val_main_cst val_main_cst_0 val_main_cst_1 val_main_cst_2
    val_main_cst_3 val_main_cst_4 val_main_cst_5 tree
  refine (hostReduce_relaid mn rfl _ _ _ _ _).trans (congrArg (pairLevel mn top rfl) ?_)
  refine (hostReduce_relaid mx rfl _ _ _ _ _).trans (congrArg (pairLevel mx bot rfl) ?_)
  refine (hostReduce_relaid mn rfl _ _ _ _ _).trans (congrArg (pairLevel mn top rfl) ?_)
  refine (hostReduce_relaid mx rfl _ _ _ _ _).trans (congrArg (pairLevel mx bot rfl) ?_)
  refine (hostReduce_relaid mn rfl _ _ _ _ _).trans (congrArg (pairLevel mn top rfl) ?_)
  refine (hostReduce_relaid mx rfl _ _ _ _ _).trans (congrArg (pairLevel mx bot rfl) ?_)
  refine (hostReduce_relaid mn rfl _ _ _ _ _).trans (congrArg (pairLevel mn top rfl) ?_)
  rfl

end Cert.ReferenceTree

end
-- ==== Proof.KernelTree.lean ====
/-
  The kernel body's value is the tree of its leaves.

  From its three loaded blocks the body computes 128 leaf values per row (the block of x times W, accumulated from
  zero, plus the bias row copied down the rows) and then seven reductions of re-laid rows, each one level of the tree.
-/
import proofs.«176620_j85126251807339_1_alg».proof.Proof.Gen.KernelIdeal.Skeleton
import proofs.«176620_j85126251807339_1_alg».proof.Proof.MinMaxTree

noncomputable section

namespace Cert.KernelTree

open Idealize.ShloMosaic Idealize.ShloMosaic.ValueIdx Cert.KernelIdeal Cert.KernelIdeal.Gen Idealize.ShloMosaic.LibPairLevel Cert.MinMaxTree

/-- The leaves of a block: rows of x times W, from a zero accumulator, plus the bias row copied down the rows. -/
def leaves (v0 : Vec Ideal S4096x256 .f32) (v2 : Vec Ideal S256x128 .f32) (v5 : Vec Ideal S1x128 .f32) : FVec Ideal S4096x128 .f32 :=
  addf (matmul dot_S4096x256_S256x128_S4096x128_1_0_0_1_n_n none (truncf .bf16 v0 bitsLt_bf16_f32) (truncf .bf16 v2 bitsLt_bf16_f32)
      (constant (F := Ideal) S4096x128 .f32 0x00000000#32))
    (broadcastTo S4096x128 (shapeCast S1x128 v5 shapeCasts_S1x128_S1x128) broadcasts_S1x128_S4096x128)

/-- What the body stores is the tree of the block's leaves. -/
theorem payload_tree (v0 : Vec Ideal S4096x256 .f32) (v2 : Vec Ideal S256x128 .f32) (v5 : Vec Ideal S1x128 .f32) :
    k0_pay1 (F := Ideal) v0 v2 v5 = tree (leaves v0 v2 v5) := by
  unfold k0_pay1 tree leaves
  refine (vectorMin_relaid rfl _ _ _ _ _ _).trans (congrArg (pairLevel mn top rfl) ?_)
  refine (vectorMax_relaid rfl _ _ _ _ _ _).trans (congrArg (pairLevel mx bot rfl) ?_)
  refine (vectorMin_relaid rfl _ _ _ _ _ _).trans (congrArg (pairLevel mn top rfl) ?_)
  refine (vectorMax_relaid rfl _ _ _ _ _ _).trans (congrArg (pairLevel mx bot rfl) ?_)
  refine (vectorMin_relaid rfl _ _ _ _ _ _).trans (congrArg (pairLevel mn top rfl) ?_)
  refine (vectorMax_relaid rfl _ _ _ _ _ _).trans (congrArg (pairLevel mx bot rfl) ?_)
  refine (vectorMin_relaid rfl _ _ _ _ _ _).trans (congrArg (pairLevel mn top rfl) ?_)
  rfl

end Cert.KernelTree

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.LibMatmul2.lean ====
/-
  A matrix product of a `[M, K]` array by a `[K, N]` array, contracted over the one shared axis, read at `(p, q)`:
  the sum over `k` of the left operand at `(p, k)` times the right operand at `(k, q)`.
-/
import Idealize.ShloMosaic.PureOps.Ideal
import Idealize.ShloMosaic.PureOps.Ideal.Laws
import Idealize.ShloMosaic.Lib.ValueIdx
import proofs.«176620_j85126251807339_1_alg».proof.Proof.LibDotSum

noncomputable section

open scoped BigOperators

namespace Idealize.ShloMosaic.LibMatmul2

open Idealize.ShloMosaic Idealize.ShloMosaic.ValueIdx

/-- The contraction sum of a `[M, K] × [K, N]` product at `(p, q)`, over the contracted coordinate.  The two facts
    about the free axes (`hl0`, `hr1`: the left operand's row is the result's row, the right operand's column the result's
    column) are read off a program's literal dimension numbers. -/
theorem contr_sum {M K N : Nat} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (x : (⟨2, ![M, K]⟩ : Shape).Idx → EReal) (y : (⟨2, ![K, N]⟩ : Shape).Idx → EReal) (p : Fin M) (q : Fin N) :
    ∑ c : D.contr.Idx, x (D.lhsIdx (ix2 p q) c) * y (D.rhsIdx (ix2 p q) c) = ∑ k : Fin K, x (ix2 p k) * y (ix2 k q) := by
  refine LibDotSum.sum_single D K hr hs x y (ix2 p q) (fun k => x (ix2 p k)) (fun k => y (ix2 k q)) (fun k => ?_) (fun k => ?_)
  · refine congrArg x (funext fun a => Fin.ext ?_)
    match a with
    | ⟨0, _⟩ => exact hl0 _ _
    | ⟨1, _⟩ => exact LibDotSum.lhs_contr_val D K hr hs hlc _ k
  · refine congrArg y (funext fun a => Fin.ext ?_)
    match a with
    | ⟨0, _⟩ => exact LibDotSum.rhs_contr_val D K hr hs hrc _ k
    | ⟨1, _⟩ => exact hr1 _ _

/-- A kernel's matrix product into a zero accumulator, at `(p, q)`. -/
theorem matmul_zero_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) :=
  (Ideal.matmul_constant_zero_apply D prec x y (ix2 p q)).trans (contr_sum D hr hs hlc hrc hl0 hr1 x y p q)

/-- The host's `dot_general` of the same shape, at `(p, q)`. -/
theorem dotGeneral_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  simp only [Host.dotGeneral]
  rw [Ideal.dotGeneral_apply]
  exact contr_sum D hr hs hlc hrc hl0 hr1 x y p q

end Idealize.ShloMosaic.LibMatmul2

end
-- ==== Proof.KernelLeaves.lean ====
/-
  The kernel's leaves at an index.

  Leaf (r, j) of a block is the sum over k of the x block at (r, k) times the W block at (k, j) — the matrix product
  into a zero accumulator; narrowing the operands to bf16 changes nothing on the extended reals — plus the bias row
  at (0, j), which the body copies down the rows.
-/
import proofs.«176620_j85126251807339_1_alg».proof.Proof.KernelTree
import proofs.«176620_j85126251807339_1_alg».proof.Proof.LibMatmul2
import Idealize.ShloMosaic.Lib.Pipeline.Value

noncomputable section

open scoped BigOperators

namespace Cert.KernelTree

open Idealize.ShloMosaic Idealize.ShloMosaic.ValueIdx Cert.KernelIdeal Cert.KernelIdeal.Gen

/-- The product's left operand index keeps the result's row. -/
theorem product_row (j : S4096x128.Idx) (q : dot_S4096x256_S256x128_S4096x128_1_0_0_1_n_n.contr.Idx) :
    (dot_S4096x256_S256x128_S4096x128_1_0_0_1_n_n.lhsIdx j q 0).val = (j 0).val := by
  unfold DotDims.lhsIdx
  rw [dif_neg (show ¬(0 : Fin S4096x256.rank) ∈ dot_S4096x256_S256x128_S4096x128_1_0_0_1_n_n.lhsBatch by decide),
    dif_pos (show (0 : Fin S4096x256.rank) ∈ dot_S4096x256_S256x128_S4096x128_1_0_0_1_n_n.lhsNonContracting by decide)]
  rfl

/-- The product's right operand index keeps the result's column. -/
theorem product_col (j : S4096x128.Idx) (q : dot_S4096x256_S256x128_S4096x128_1_0_0_1_n_n.contr.Idx) :
    (dot_S4096x256_S256x128_S4096x128_1_0_0_1_n_n.rhsIdx j q 1).val = (j 1).val := by
  unfold DotDims.rhsIdx
  rw [dif_neg (show ¬(1 : Fin S256x128.rank) ∈ dot_S4096x256_S256x128_S4096x128_1_0_0_1_n_n.rhsBatch by decide),
    dif_pos (show (1 : Fin S256x128.rank) ∈ dot_S4096x256_S256x128_S4096x128_1_0_0_1_n_n.rhsNonContracting by decide)]
  rfl

/-- The bias row copied down the rows, at (r, j), is the row's entry j. -/
theorem bias_rows (v5 : Vec Ideal S1x128 .f32) (r : Fin 4096) (j : Fin 128) :
    broadcastTo S4096x128 (shapeCast S1x128 v5 shapeCasts_S1x128_S1x128) broadcasts_S1x128_S4096x128 (ix2 r j)
      = v5 (ix2 (0 : Fin 1) j) := by
  refine (broadcastTo_apply _ broadcasts_S1x128_S4096x128 (ix2 r j) (ix2 (0 : Fin 1) j) (fun a => ?_)).trans ?_
  · match a with
    | ⟨0, _⟩ => show (0 : Nat) = if (1 : Nat) = 1 then 0 else r.val; rw [if_pos rfl]
    | ⟨1, _⟩ => show j.val = if (128 : Nat) = 1 then 0 else j.val; rw [if_neg (by decide)]
  · exact congrFun (shapeCast_self v5 shapeCasts_S1x128_S1x128) _

/-- Leaf (r, j) of a block: the row of x against the column of W, plus the bias. -/
theorem leaves_apply (v0 : Vec Ideal S4096x256 .f32) (v2 : Vec Ideal S256x128 .f32) (v5 : Vec Ideal S1x128 .f32)
    (r : Fin 4096) (j : Fin 128) :
    leaves v0 v2 v5 (ix2 r j) = (∑ k : Fin 256, v0 (ix2 r k) * v2 (ix2 k j)) + v5 (ix2 (0 : Fin 1) j) := by
  have hp := LibMatmul2.matmul_zero_apply dot_S4096x256_S256x128_S4096x128_1_0_0_1_n_n rfl rfl rfl rfl product_row product_col none
    (truncf .bf16 v0 bitsLt_bf16_f32 : FVec Ideal S4096x256 .bf16) (truncf .bf16 v2 bitsLt_bf16_f32 : FVec Ideal S256x128 .bf16) r j
  exact congrArg₂ (fun a b : EReal => a + b) hp (bias_rows v5 r j)

end Cert.KernelTree

end
-- ==== Proof.ReferenceLeaves.lean ====
/-
  The reference's leaves at an index.

  Stage four of the reference, at (i, j), is the sum over k of x (i, k) times W (k, j) plus b j: the product, and the
  bias first made a row and then copied down the rows.
-/
import proofs.«176620_j85126251807339_1_alg».proof.Proof.Gen.ReferenceIdeal.Read

noncomputable section

open scoped BigOperators

namespace Cert.ReferenceTree

open Idealize.ShloMosaic Idealize.ShloMosaic.ValueIdx Cert.ReferenceIdeal Cert.ReferenceIdeal.Gen Cert.ReferenceIdeal.Read

/-- Leaf (i, j) of the reference: row i of x against column j of W, plus the bias. -/
theorem reference_leaves_apply (x0 : (⟨S65536x256, .f32⟩ : BufTy).Contents (Elt Ideal)) (x1 : (⟨S256x128, .f32⟩ : BufTy).Contents (Elt Ideal))
    (x2 : (⟨S128, .f32⟩ : BufTy).Contents (Elt Ideal)) (i : Fin 65536) (j : Fin 128) :
    val_main_v3 (F := Ideal) x0 x1 x2 (ix2 i j) = (∑ k : Fin 256, x0 (ix2 i k) * x1 (ix2 k j)) + x2 (ix1 j) := by
  have hd : val_main_v0 (F := Ideal) x0 x1 (ix2 i j) = ∑ k : Fin 256, x0 (ix2 i k) * x1 (ix2 k j) := by
    rw [val_main_v0_apply]
    refine Finset.sum_congr rfl fun k _ => ?_
    have el : lidx_main_v0 (ix2 i j) k = ix2 i k := funext fun a => by
      match a with
      | ⟨0, _⟩ => rfl
      | ⟨1, _⟩ => rfl
    have er : ridx_main_v0 (ix2 i j) k = ix2 k j := funext fun a => by
      match a with
      | ⟨0, _⟩ => rfl
      | ⟨1, _⟩ => rfl
    rw [el, er]
  have hb : val_main_v2 (F := Ideal) x2 (ix2 i j) = x2 (ix1 j) := by
    rw [val_main_v2_apply, val_main_v1_apply]
    exact congrArg x2 (funext fun a => by
      match a with
      | ⟨0, _⟩ => rfl)
  exact congrArg₂ (fun a b : EReal => a + b) hd hb

end Cert.ReferenceTree

end
-- ==== Proof.RowValue.lean ====
/-
  One row, both programs.

  If the three blocks a grid point loads hold row i of x (as the block's row r), all of W, and the bias as a row, then
  the tree of the block's leaves on row r is the reference's tree on row i: the leaves agree entry by entry, and the
  tree only looks along a row.
-/
import proofs.«176620_j85126251807339_1_alg».proof.Proof.KernelLeaves
import proofs.«176620_j85126251807339_1_alg».proof.Proof.ReferenceLeaves
import proofs.«176620_j85126251807339_1_alg».proof.Proof.ReferenceTree

noncomputable section

namespace Cert.RowValue

open Idealize.ShloMosaic Idealize.ShloMosaic.ValueIdx Cert.MinMaxTree

theorem row_value (v0 : Vec Ideal Cert.KernelIdeal.S4096x256 .f32) (v2 : Vec Ideal Cert.KernelIdeal.S256x128 .f32)
    (v5 : Vec Ideal Cert.KernelIdeal.S1x128 .f32)
    (x0 : (⟨Cert.ReferenceIdeal.S65536x256, .f32⟩ : BufTy).Contents (Elt Ideal))
    (x1 : (⟨Cert.ReferenceIdeal.S256x128, .f32⟩ : BufTy).Contents (Elt Ideal))
    (x2 : (⟨Cert.ReferenceIdeal.S128, .f32⟩ : BufTy).Contents (Elt Ideal))
    (r : Fin 4096) (i : Fin 65536)
    (h0 : ∀ k : Fin 256, v0 (ix2 r k) = x0 (ix2 i k))
    (h1 : ∀ (k : Fin 256) (j : Fin 128), v2 (ix2 k j) = x1 (ix2 k j))
    (h2 : ∀ j : Fin 128, v5 (ix2 (0 : Fin 1) j) = x2 (ix1 j)) (q : Fin 1) :
    tree (Cert.KernelTree.leaves v0 v2 v5) (ix2 r q)
      = tree (Cert.ReferenceIdeal.Read.val_main_v3 (F := Ideal) x0 x1 x2) (ix2 i q) := by
  refine tree_row _ _ r i (fun j => ?_) q
  rw [Cert.KernelTree.leaves_apply, Cert.ReferenceTree.reference_leaves_apply, h2 j]
  exact congrArg (fun s : EReal => s + x2 (ix1 j)) (Finset.sum_congr rfl fun k _ => by rw [h0 k, h1 k j])

end Cert.RowValue

end
-- ==== Proof.KernelArray.lean ====
/-
  The kernel's result array.

  Grid point t loads rows 4096 t .. 4096 t + 4095 of x, all of W and the bias as a row, and writes back rows
  4096 t .. 4096 t + 4095 of the result: on each of its rows the tree of that row's leaves.  The sixteen blocks tile
  the 65536 rows, so after the run the whole array is, row by row, the tree of x W + b.
-/
import proofs.«176620_j85126251807339_1_alg».proof.Proof.Gen.KernelIdeal.Value
import proofs.«176620_j85126251807339_1_alg».proof.Proof.RowValue
import Idealize.ShloMosaic.Lib.Pipeline.Value
import Idealize.ShloMosaic.Lib.StableHlo.Run

set_option maxRecDepth 16384

noncomputable section

namespace Cert.KernelArray

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.MinMaxTree

variable (m : (ℓ : Loc nD τ sig) → Buf (Elt Ideal) ℓ) (ρ : Dev nD → PrngReg)

theorem origin : (![0, 0] : Fin 2 → Nat) = fun _ => 0 := funext fun a => by fin_cases a <;> rfl

/-- THE RESULT: on every row the tree of the 128 leaves x W + b of that row, of the arrays as launched. -/
def result (c : Dev nD) : S65536x1.Idx → Ideal .f32 :=
  tree (Cert.ReferenceIdeal.Read.val_main_v3 (F := Ideal) (m ((c : Thread nD τ).loc main_arg0))
    (m ((c : Thread nD τ).loc main_arg1)) (m ((c : Thread nD τ).loc main_arg2)))

/-- Where each window's block sits at grid point t: x and the result move down with t, W and the bias stay. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row r of grid point t's blocks is row 4096 t + r of the arrays. -/
def rowOf (t : Fin cfg0.N) (r : Fin 4096) : Fin 65536 :=
  ⟨t.val * 4096 + r.val, by have h : t.val < 16 := lt_of_lt_of_eq t.isLt N_0; have := r.isLt; omega⟩

/-- The x block at grid point t, row r: row 4096 t + r of x. -/
theorem x_block (c : Dev nD) (t : Fin cfg0.N) (r : Fin 4096) (k : Fin 256) :
    iblk m c 0 t (ix2 r k) = m ((c : Thread nD τ).loc main_arg0) (ix2 (rowOf t r) k) := by
  obtain ⟨e0, e1, -, -, -, -, -, -⟩ := index_facts t
  show V m c main_arg0 (((cfg0.win 0).blk t).view.emb (ix2 r k)) = _
  rw [V_main_arg0]
  refine congrArg (m ((c : Thread nD τ).loc main_arg0)) (funext fun a => Fin.ext ?_)
  match a with
  | ⟨0, _⟩ => show win0_0.index t (0 : Fin 2) * 4096 + 1 * r.val = t.val * 4096 + r.val; omega
  | ⟨1, _⟩ => show win0_0.index t (1 : Fin 2) * 256 + 1 * k.val = k.val; omega

/-- The W block at every grid point is W. -/
theorem w_block (c : Dev nD) (t : Fin cfg0.N) (k : Fin 256) (j : Fin 128) :
    iblk m c 1 t (ix2 k j) = m ((c : Thread nD τ).loc main_arg1) (ix2 k j) := by
  obtain ⟨-, -, e0, e1, -, -, -, -⟩ := index_facts t
  show V m c main_arg1 (((cfg0.win 1).blk t).view.emb (ix2 k j)) = _
  rw [V_main_arg1]
  refine congrArg (m ((c : Thread nD τ).loc main_arg1)) (funext fun a => Fin.ext ?_)
  match a with
  | ⟨0, _⟩ => show win0_1.index t (0 : Fin 2) * 256 + 1 * k.val = k.val; omega
  | ⟨1, _⟩ => show win0_1.index t (1 : Fin 2) * 128 + 1 * j.val = j.val; omega

/-- The array the bias window stages: the bias re-laid as one row, which the host does before the grid starts. -/
theorem bias_array (c : Dev nD) :
    (V m c main_v0 : S1x128.Idx → Ideal .f32) = shapeCast S1x128 (m ((c : Thread nD τ).loc main_arg2)) shapeCasts_S128_S1x128 := by
  dsimp only [V, hostOps0]
  after_results
  rfl

/-- The bias block at every grid point, at (0, j): entry j of the bias. -/
theorem b_block (c : Dev nD) (t : Fin cfg0.N) (j : Fin 128) :
    iblk m c 2 t (ix2 (0 : Fin 1) j) = m ((c : Thread nD τ).loc main_arg2) (ix1 j) := by
  obtain ⟨-, -, -, -, e0, e1, -, -⟩ := index_facts t
  show V m c main_v0 (((cfg0.win 2).blk t).view.emb (ix2 (0 : Fin 1) j)) = _
  rw [bias_array m c]
  refine shapeCast_apply _ shapeCasts_S128_S1x128 _ (ix1 j) ?_
  rw [Shape.rowMajor_val_one, Shape.rowMajor_val_two]
  show j.val = (win0_2.index t (0 : Fin 2) * 1 + 1 * 0) * 128 + (win0_2.index t (1 : Fin 2) * 128 + 1 * j.val)
  omega

/-- WHAT GRID POINT t WRITES BACK is block t of the result. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero origin]
  simp only [View.ld_unit_zero (S := S4096x256) origin, View.ld_unit_zero (S := S256x128) origin,
    View.ld_unit_zero (S := S1x128) origin]
  rw [Cert.KernelTree.payload_tree]
  obtain ⟨-, -, -, -, -, -, e0, e1⟩ := index_facts t
  funext y
  obtain ⟨r, q, rfl⟩ : ∃ (r : Fin 4096) (q : Fin 1), y = ix2 r q := ⟨y 0, y 1, eq_ix2 y⟩
  show tree (Cert.KernelTree.leaves (iblk m c 0 t) (iblk m c 1 t) (iblk m c 2 t)) (ix2 r q)
    = result m c (((cfg0.win 3).blk t).view.emb (ix2 r q))
  have he : ((cfg0.win 3).blk t).view.emb (ix2 r q) = ix2 (rowOf t r) q := funext fun a => Fin.ext (by
    match a with
    | ⟨0, _⟩ => show win0_3.index t (0 : Fin 2) * 4096 + 1 * r.val = t.val * 4096 + r.val; omega
    | ⟨1, _⟩ => show win0_3.index t (1 : Fin 2) * 1 + 1 * q.val = q.val; omega)
  rw [he]
  exact Cert.RowValue.row_value _ _ _ _ _ _ r (rowOf t r) (x_block m c t r) (w_block m c t) (b_block m c t) q

/-- An index of the array is in grid point t's block iff each coordinate is in the block's range on its axis. -/
theorem mem_blk (t : Fin cfg0.N) (i : S65536x1.Idx) :
    i ∈ ((cfg0.win 3).blk t).view.set ↔ ∀ a : Fin 2, win0_3.index t a * S4096x1.size a ≤ (i a).val
      ∧ (i a).val < win0_3.index t a * S4096x1.size a + S4096x1.size a := by
  show i ∈ ((View.whole main_v1).slice (win0_3.rect t)).set ↔ _
  rw [View.set_slice_whole, Rect.mem_set_unit]
  exact Iff.rfl

/-- Every row of the array is in some grid point's block: row i in block i / 4096. -/
theorem covered (i : S65536x1.Idx) :
    ∃ t : Fin cfg0.N, (cfg0.win 3).flush t = true ∧ i ∈ ((cfg0.win 3).blk t).view.set := by
  have hi0 : (i 0).val < 65536 := (i 0).isLt
  have hi1 : (i 1).val < 1 := (i 1).isLt
  refine ⟨⟨(i 0).val / 4096, lt_of_lt_of_eq (by omega : (i 0).val / 4096 < 16) N_0.symm⟩, flush0_3 _, ?_⟩
  obtain ⟨-, -, -, -, -, -, e0, e1⟩ := index_facts ⟨(i 0).val / 4096, lt_of_lt_of_eq (by omega : (i 0).val / 4096 < 16) N_0.symm⟩
  rw [mem_blk]
  intro a
  match a with
  | ⟨0, _⟩ =>
    show win0_3.index _ (0 : Fin 2) * 4096 ≤ (i 0).val ∧ (i 0).val < win0_3.index _ (0 : Fin 2) * 4096 + 4096
    rw [e0]
    show (i 0).val / 4096 * 4096 ≤ (i 0).val ∧ (i 0).val < (i 0).val / 4096 * 4096 + 4096
    omega
  | ⟨1, _⟩ =>
    show win0_3.index _ (1 : Fin 2) * 1 ≤ (i 1).val ∧ (i 1).val < win0_3.index _ (1 : Fin 2) * 1 + 1
    rw [e1]
    omega

/-- THE ARRAY after the run is the result. -/
theorem final (c : Dev nD) : (dats m 0 c).arrAt 3 cfg0.N = result m c :=
  (dats m 0 c).arrAt_eq_of_cover 3 (result m c) (fun t _ => flushed_eq m c t) covered

/-- The kernel's run: it ends with the result array at result, the arguments as launched. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelArray

end
-- ==== Proof.lean ====
/-
  A min/max tree over 128 linear pieces, in blocks of rows against the whole arrays.

  For each of the 65536 rows i of x both programs compute the 128 leaf values
      leaf i j  =  (sum over k of x (i, k) * W (k, j)) + b j
  and fold them up a perfect binary tree of seven levels over adjacent pairs: entries 2q and 2q + 1 of a level are
  combined into entry q of the next, by min on the first level, then max, min, max, min, max, and a last min that
  leaves one value per row.  A min level starts from +infinity and a max level from -infinity, in both programs.

  The kernel works on sixteen blocks of 4096 rows.  Its matrix product takes operands narrowed to bf16, which on the
  extended reals is no change, and accumulates from zero, so a leaf of a block is the sum above; each of its seven
  reductions, over the last axis of a row re-laid as [n, 2], is one level of the tree, and so is each reduce of the
  reference, because min and max commute and associate and the fold over a pair does not depend on the order
  (LibPairLevel, MinMaxTree, KernelTree, ReferenceTree).  The leaves agree entry by entry (KernelLeaves, ReferenceLeaves);
  a level only looks along a row, so what a grid point computes on row r of its block is the reference's value on row
  4096 t + r (RowValue); and the sixteen blocks tile the rows (KernelArray).  Sums and products appear in the same
  arrangement on both sides and only min and max are re-ordered, so nothing here needs the inputs to be finite.

  The ideal pass rewrote nothing in this kernel, so what it has to preserve is empty.
-/
import proofs.«176620_j85126251807339_1_alg».proof.Defs
import proofs.«176620_j85126251807339_1_alg».proof.Proof.Gen.Kernel
import proofs.«176620_j85126251807339_1_alg».proof.Proof.Gen.Kernel.Skeleton
import proofs.«176620_j85126251807339_1_alg».proof.Proof.Gen.Kernel.Launch
import proofs.«176620_j85126251807339_1_alg».proof.Proof.Gen.Kernel.Points
import proofs.«176620_j85126251807339_1_alg».proof.Proof.Gen.Kernel.Frame
import proofs.«176620_j85126251807339_1_alg».proof.Proof.Gen.KernelIdeal
import proofs.«176620_j85126251807339_1_alg».proof.Proof.Gen.KernelIdeal.Skeleton
import proofs.«176620_j85126251807339_1_alg».proof.Proof.Gen.KernelIdeal.Launch
import proofs.«176620_j85126251807339_1_alg».proof.Proof.Gen.KernelIdeal.Points
import proofs.«176620_j85126251807339_1_alg».proof.Proof.Gen.KernelIdeal.Frame
import proofs.«176620_j85126251807339_1_alg».proof.Proof.Gen.ReferenceIdeal
import proofs.«176620_j85126251807339_1_alg».proof.Proof.Gen.Pre_finite_inputs
import proofs.«176620_j85126251807339_1_alg».proof.Proof.Gen.KernelIdeal.Value
import proofs.«176620_j85126251807339_1_alg».proof.Proof.Gen.ReferenceIdeal.Run
import proofs.«176620_j85126251807339_1_alg».proof.Proof.Gen.ReferenceIdeal.Read
import proofs.«176620_j85126251807339_1_alg».proof.Proof.ReferenceTree
import proofs.«176620_j85126251807339_1_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments alone: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten, so there is nothing to preserve. -/
theorem preserves : Cert.preserves_Kernel_KernelIdeal := trivial

/-- From memories that agree on x, W and b, the kernel's result array and the reference's result are both, row by row,
    the tree of the leaves x W + b. -/
theorem algebraic : Cert.algebraic_KernelIdeal_ReferenceIdeal := by
  intro m ρ m' ρ' _ hagree
  refine ⟨fun c => Cert.KernelArray.result m c, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceTree.reference_tree, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
